-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512x1 : Shape := ⟨2, ![512, 1]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S32768x512 .f32) (main_arg1 : FVec F S512x512 .f32) (main_arg2 : FVec F S512x1 .f32) (main_arg3 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32768x512 : Shape := ⟨2, ![32768, 512]⟩
abbrev S512x512 : Shape := ⟨2, ![512, 512]⟩
abbrev S512x1 : Shape := ⟨2, ![512, 1]⟩
abbrev S512 : Shape := ⟨1, ![512]⟩
abbrev S_ : Shape := ⟨0, ![]⟩
abbrev S1 : Shape := ⟨1, ![1]⟩
abbrev S8x512 : Shape := ⟨2, ![8, 512]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 54
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512x1, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S_, .f32⟩
  | .hbm, ⟨41, _⟩ => ⟨S8x512, .f32⟩
  | .hbm, ⟨42, _⟩ => ⟨S_, .i32⟩
  | .hbm, ⟨43, _⟩ => ⟨S1, .i32⟩
  | .hbm, ⟨44, _⟩ => ⟨S8x512, .f32⟩
  | .hbm, ⟨45, _⟩ => ⟨S_, .i32⟩
  | .hbm, ⟨46, _⟩ => ⟨S1, .i32⟩
  | .hbm, ⟨47, _⟩ => ⟨S8x512, .f32⟩
  | .hbm, ⟨48, _⟩ => ⟨S_, .i32⟩
  | .hbm, ⟨49, _⟩ => ⟨S1, .i32⟩
  | .hbm, ⟨50, _⟩ => ⟨S8x512, .f32⟩
  | .hbm, ⟨51, _⟩ => ⟨S512x512, .f32⟩
  | .hbm, ⟨52, _⟩ => ⟨S512x512, .bf16⟩
  | .hbm, ⟨53, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S8x512, .f32⟩
  | .local _ .vmem, ⟨4, _⟩ => ⟨S2048x512, .f32⟩
  | .local _ .vmem, ⟨5, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x1_S512 : S512x1.ShapeCasts S512
  reducesTo_S512x512_S512_d1 : S512x512.ReducesTo [1] S512
  h_S_ : 0 < S_.numel
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  bcast_S1_S512_0 : S1.BroadcastsInDim S512 (![0] : Fin 1 → Fin S512.rank)
  bcast_S_S8x512 : S_.BroadcastsInDim S8x512 (![] : Fin 0 → Fin S8x512.rank)
  transposes_S512x512_S512x512_1_0 : S512x512.Transposes [1, 0] S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S2048 : S2048x512.Reduces [1] S2048
  shapeCasts_S2048_S2048x1 : S2048.ShapeCasts S2048x1
  inb_S8x512_S1x512_0_0 : ∀ a, (![0, 0] : Fin 2 → Nat) a + S1x512.size a ≤ S8x512.size a
  h_S1x512 : 0 < S1x512.numel
  shapeCasts_S1x512_S1x512 : S1x512.ShapeCasts S1x512
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  broadcasts_S1x512_S2048x512 : S1x512.Broadcasts S2048x512
  broadcasts_S2048x1_S2048x512 : S2048x1.Broadcasts S2048x512
  scatter_S8x512_S1_S512_0_0_0_0_wf : ScatterDims.WF S8x512 S1 S512 [0] [0] [0] 0
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def scatter_S8x512_S1_S512_0_0_0_0 : ScatterDims S8x512 S1 S512 where
  updateWindowDims := [0]
  insertedWindowDims := [0]
  scatterDimsToOperandDims := [0]
  indexVectorDim := 0
  wf := scatter_S8x512_S1_S512_0_0_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512x1 : Shape := ⟨2, ![512, 1]⟩
abbrev S512 : Shape := ⟨1, ![512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S1 : Shape := ⟨1, ![1]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512x1, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S32768x512, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x512, .f32⟩
  | .hbm, ⟨15, _⟩ => ⟨S32768x512, .f32⟩
  | .hbm, ⟨16, _⟩ => ⟨S_, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S1x512, .f32⟩
  | .hbm, ⟨25, _⟩ => ⟨S32768x512, .f32⟩
  | .hbm, ⟨26, _⟩ => ⟨S32768x512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S1x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768, .f32⟩
  | .hbm, ⟨56, _⟩ => ⟨S_, .f32⟩
  | .hbm, ⟨57, _⟩ => ⟨S32768, .f32⟩
  | .hbm, ⟨58, _⟩ => ⟨S32768, .f32⟩
  | .hbm, ⟨59, _⟩ => ⟨S32768x1, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S_, .f32⟩
  | .hbm, ⟨64, _⟩ => ⟨S32768, .f32⟩
  | .hbm, ⟨65, _⟩ => ⟨S32768x1, .f32⟩
  | .hbm, ⟨66, _⟩ => ⟨S32768x512, .f32⟩
  | .hbm, ⟨67, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_call0_cst : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  shapeCasts_S512x1_S512 : S512x1.ShapeCasts S512
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S512x512_S512_d1 : S512x512.ReducesTo [1] S512
  transposes_S512x512_S512x512_1_0 : S512x512.Transposes [1, 0] S512x512
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  bcast_S1_S512_0 : S1.BroadcastsInDim S512 (![0] : Fin 1 → Fin S512.rank)
  bcast_S_S32768 : S_.BroadcastsInDim S32768 (![] : Fin 0 → Fin S32768.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibRowScatter.lean ====
/-
  The host's scatter that overwrites one row of a matrix, read at an entry. Independent of any program.

  With an operand [R, N], one scatter index (held in a one-entry array) naming a row r, and an update [N] whose body
  returns the update, the scatter is a left fold, over the N update positions, of single-entry writes: position j writes
  the entry (r, j). The targets are pairwise distinct and all lie in row r, so after the fold row r holds the update and
  every other row keeps the operand's entries.
-/
import Idealize.ShloMosaic.Lib.ValueIdx
import Idealize.ShloMosaic.PureOps.ShapeOps

noncomputable section

namespace Cert.Lib

open Idealize.ShloMosaic Idealize.ShloMosaic.ValueIdx

/-- The dimension numbers of "write one row": operand `[R, N]`, ONE scatter index held in a `[1]` array,
    update `[N]`. -/
abbrev rowSet (R N : Nat) (wf : ScatterDims.WF ⟨2, ![R, N]⟩ ⟨1, ![1]⟩ ⟨1, ![N]⟩ [0] [0] [0] 0) :
    ScatterDims ⟨2, ![R, N]⟩ ⟨1, ![1]⟩ ⟨1, ![N]⟩ where
  updateWindowDims := [0]
  insertedWindowDims := [0]
  scatterDimsToOperandDims := [0]
  indexVectorDim := 0
  wf := wf

section
variable {w R N : Nat} (wf : ScatterDims.WF ⟨2, ![R, N]⟩ ⟨1, ![1]⟩ ⟨1, ![N]⟩ [0] [0] [0] 0)
  (idx : IVec ⟨1, ![1]⟩ w) (j : (⟨1, ![N]⟩ : Shape).Idx)

/-- The window of "write one row" starts, on the row axis, at the one scatter index … -/
theorem rowSet_start0 (r : Fin R) (hr : ∀ k, (idx k).toInt = (r.val : Int)) :
    (rowSet R N wf).start j idx (0 : Fin 2) = (r.val : Int) := by
  unfold ScatterDims.start
  rw [dif_pos (List.mem_singleton.2 rfl)]
  exact hr _

/-- … and on the column axis, which the index map does not name, at `0`. -/
theorem rowSet_start1 : (rowSet R N wf).start j idx (1 : Fin 2) = 0 := by
  unfold ScatterDims.start
  rw [dif_neg (by simp)]

/-- The row axis is inserted: its window coordinate is `0` … -/
theorem rowSet_window0 : (rowSet R N wf).window j (0 : Fin 2) = 0 := by
  unfold ScatterDims.window
  rw [dif_neg (by simp [Shape.kept])]

/-- … and the column axis is the update's one axis: its window coordinate is the update index's coordinate. -/
theorem rowSet_window1 : (rowSet R N wf).window j (1 : Fin 2) = (j 0).val := by
  unfold ScatterDims.window
  rw [dif_pos (by simp [Shape.kept])]
  rfl

/-- Every update index `j` lands inside the operand, in row `r` at column `j 0`. -/
theorem rowSet_resultIdx (r : Fin R) (hr : ∀ k, (idx k).toInt = (r.val : Int)) :
    (rowSet R N wf).resultIdx? j idx = some (ix2 r (j 0 : Fin N)) := by
  have s0 := rowSet_start0 wf idx j r hr
  have s1 := rowSet_start1 wf idx j
  have w0 := rowSet_window0 wf j
  have w1 := rowSet_window1 wf j
  have hj : (j 0).val < N := (j 0).isLt
  unfold ScatterDims.resultIdx?
  rw [dif_pos (by
    intro a
    match a with
    | ⟨0, _⟩ =>
      show 0 ≤ (rowSet R N wf).start j idx (0 : Fin 2) + ((rowSet R N wf).window j (0 : Fin 2) : Int) ∧
        (rowSet R N wf).start j idx (0 : Fin 2) + ((rowSet R N wf).window j (0 : Fin 2) : Int) < (R : Int)
      rw [s0, w0]; have := r.isLt; omega
    | ⟨1, _⟩ =>
      show 0 ≤ (rowSet R N wf).start j idx (1 : Fin 2) + ((rowSet R N wf).window j (1 : Fin 2) : Int) ∧
        (rowSet R N wf).start j idx (1 : Fin 2) + ((rowSet R N wf).window j (1 : Fin 2) : Int) < (N : Int)
      rw [s1, w1]; omega)]
  congr 1
  funext a
  match a with
  | ⟨0, _⟩ =>
    apply Fin.ext
    show ((rowSet R N wf).start j idx (0 : Fin 2) + ((rowSet R N wf).window j (0 : Fin 2) : Int)).toNat = r.val
    rw [s0, w0]; omega
  | ⟨1, _⟩ =>
    apply Fin.ext
    show ((rowSet R N wf).start j idx (1 : Fin 2) + ((rowSet R N wf).window j (1 : Fin 2) : Int)).toNat = (j 0).val
    rw [s1, w1]; omega
end

/-! ## A left fold of single-element writes -/

section Fold
variable {ι β γ : Type} [DecidableEq ι] (t : γ → ι) (v : γ → β)

/-- An index that no step writes keeps the array's entry. -/
theorem foldl_write_of_ne : ∀ (l : List γ) (x : ι → β) (i : ι), (∀ n ∈ l, i ≠ t n) →
    (l.foldl (fun r n i' => if i' = t n then v n else r i') x) i = x i
  | [], _, _, _ => rfl
  | n :: l, x, i, h => by
    rw [List.foldl_cons, foldl_write_of_ne l _ i (fun m hm => h m (List.mem_cons_of_mem _ hm))]
    exact if_neg (h n List.mem_cons_self)

/-- With the steps' targets pairwise distinct, the entry at a step's target is that step's value. -/
theorem foldl_write_of_mem (ht : Function.Injective t) (n : γ) : ∀ (l : List γ) (x : ι → β), n ∈ l →
    (l.foldl (fun r m i' => if i' = t m then v m else r i') x) (t n) = v n
  | [], _, h => absurd h List.not_mem_nil
  | m :: l, x, h => by
    rw [List.foldl_cons]
    by_cases hn : n ∈ l
    · exact foldl_write_of_mem ht n l _ hn
    · have hm : n = m := by
        rcases List.mem_cons.1 h with h | h
        · exact h
        · exact absurd h hn
      subst hm
      rw [foldl_write_of_ne t v l _ (t n) (fun k hk e => hn (ht e ▸ hk))]
      exact if_pos rfl

end Fold

/-! ## The scatter that writes one row -/

section
variable {α : Type} {w R N : Nat} (wf : ScatterDims.WF ⟨2, ![R, N]⟩ ⟨1, ![1]⟩ ⟨1, ![N]⟩ [0] [0] [0] 0)

/-- The scatter as a fold of writes into row `r`. -/
theorem scatter_rowSet_eq_foldl (x : (⟨2, ![R, N]⟩ : Shape).Idx → α) (idx : IVec ⟨1, ![1]⟩ w)
    (upd : (⟨1, ![N]⟩ : Shape).Idx → α) (r : Fin R) (hr : ∀ k, (idx k).toInt = (r.val : Int)) :
    Host.scatter (rowSet R N wf) (fun _ b => b) x idx upd =
      (List.finRange (⟨1, ![N]⟩ : Shape).numel).foldl
        (fun a n i' => if i' = ix2 r (((⟨1, ![N]⟩ : Shape).rowMajor.symm n) 0 : Fin N) then
          upd ((⟨1, ![N]⟩ : Shape).rowMajor.symm n) else a i') x := by
  unfold Host.scatter
  congr 1
  funext a n
  rw [rowSet_resultIdx wf idx _ r hr]
  rfl

/-- `stablehlo.scatter` with the dimension numbers of "write one row", its body returning the update, at a scatter
    index that reads `r`: row `r` becomes the update and every other row is kept. -/
theorem scatter_rowSet_apply (x : (⟨2, ![R, N]⟩ : Shape).Idx → α) (idx : IVec ⟨1, ![1]⟩ w)
    (upd : (⟨1, ![N]⟩ : Shape).Idx → α) (r : Fin R) (hr : ∀ k, (idx k).toInt = (r.val : Int)) (p : Fin R) (q : Fin N) :
    Host.scatter (rowSet R N wf) (fun _ b => b) x idx upd (ix2 p q) = if p = r then upd (ix1 q) else x (ix2 p q) := by
  rw [scatter_rowSet_eq_foldl wf x idx upd r hr]
  by_cases hp : p = r
  · subst hp
    rw [if_pos rfl]
    have ht : Function.Injective fun n : Fin (⟨1, ![N]⟩ : Shape).numel =>
        (ix2 p (((⟨1, ![N]⟩ : Shape).rowMajor.symm n) 0 : Fin N) : (⟨2, ![R, N]⟩ : Shape).Idx) := by
      intro n m e
      have e1 : ((⟨1, ![N]⟩ : Shape).rowMajor.symm n) 0 = ((⟨1, ![N]⟩ : Shape).rowMajor.symm m) 0 := congrFun e (1 : Fin 2)
      apply (⟨1, ![N]⟩ : Shape).rowMajor.symm.injective
      rw [eq_ix1 ((⟨1, ![N]⟩ : Shape).rowMajor.symm n), eq_ix1 ((⟨1, ![N]⟩ : Shape).rowMajor.symm m), e1]
    have key := foldl_write_of_mem _ (fun n => upd ((⟨1, ![N]⟩ : Shape).rowMajor.symm n)) ht
      ((⟨1, ![N]⟩ : Shape).rowMajor (ix1 q)) (List.finRange _) x (List.mem_finRange _)
    simp only [Equiv.symm_apply_apply] at key
    exact key
  · rw [if_neg hp]
    exact foldl_write_of_ne _ _ _ x (ix2 p q) (fun n _ e => hp (congrFun e (0 : Fin 2)))
end

/-! ## The scatter indices a program writes as literals -/

theorem toInt_0_32 : (0#32 : BitVec 32).toInt = 0 := by decide
theorem toInt_1_32 : (1#32 : BitVec 32).toInt = 1 := by decide
theorem toInt_2_32 : (2#32 : BitVec 32).toInt = 2 := by decide

end Cert.Lib

end
-- ==== Proof.Shapes.lean ====
/-
  The array shapes of the mixture computation: 32768 samples of dimension 512 against 512 components, processed in
  tiles of 2048 samples; and the float word of −∞ from which both programs fold their row maxima.
-/
import Idealize.ShloMosaic.PureOps.Ideal

noncomputable section

namespace Cert.Gmm

open Idealize.ShloMosaic

abbrev Big : Shape := ⟨2, ![32768, 512]⟩
abbrev BigRows : Shape := ⟨1, ![32768]⟩
abbrev BigCol : Shape := ⟨2, ![32768, 1]⟩
abbrev Tile : Shape := ⟨2, ![2048, 512]⟩
abbrev TileRows : Shape := ⟨1, ![2048]⟩
abbrev TileCol : Shape := ⟨2, ![2048, 1]⟩
abbrev OneRow : Shape := ⟨2, ![1, 512]⟩
abbrev Sq : Shape := ⟨2, ![512, 512]⟩
abbrev Vec512 : Shape := ⟨1, ![512]⟩
abbrev Col512 : Shape := ⟨2, ![512, 1]⟩
abbrev Tbl : Shape := ⟨2, ![8, 512]⟩
abbrev Scalar0 : Shape := ⟨0, ![]⟩
abbrev One1 : Shape := ⟨1, ![1]⟩

/-- The value a row maximum is folded from: the float word of −∞. Both programs use the same word, so it is never
    evaluated. -/
abbrev negInf : EReal := Ideal.ofBits .f32 0xFF800000#32

end Cert.Gmm

end
-- ==== Proof.Tables.lean ====
/-
  The three coefficient rows, packed as rows 0, 1, 2 of an [8, 512] table of zeros.

  From the per-component vectors v (inverse variance), μ (squared norm of the mean), ℓ (log-determinant term) and L
  (log-weight term):
      row 0:  α_k = v_k,
      row 1:  γ_k = −½ · v_k,
      row 2:  β_k = ((−½ · μ_k) · v_k − ½ · ℓ_k) + L_k.
  Each row is written by a scatter that replaces one whole row and keeps the others, so after the three writes row 0
  still holds α, row 1 holds γ and row 2 holds β.
-/
import Idealize.ShloMosaic.PureOps.Ideal.Laws
import Idealize.ShloMosaic.Lib.ValueIdx
import Idealize.ShloMosaic.Lib.Pipeline.Value
import proofs.«150302_j45011257262295_2_alg».proof.Proof.LibColumn
import proofs.«150302_j45011257262295_2_alg».proof.Proof.LibRowScatter
import proofs.«150302_j45011257262295_2_alg».proof.Proof.Shapes

noncomputable section

namespace Cert.Gmm

open Idealize.ShloMosaic Idealize.ShloMosaic.ValueIdx Cert.Lib

/-- γ = −½ · v. -/
def gammaRow (v : FVec Ideal Vec512 .f32) (hs : Scalar0.BroadcastsInDim Vec512 ![]) : FVec Ideal Vec512 .f32 :=
  mulf (broadcastInDim Vec512 ![] hs (constant (F := Ideal) Scalar0 .f32 0xBF000000#32)) v

/-- β = ((−½ · μ) · v − ½ · ℓ) + L. -/
def betaRow (μ v ℓ L : FVec Ideal Vec512 .f32) (hs : Scalar0.BroadcastsInDim Vec512 ![]) : FVec Ideal Vec512 .f32 :=
  addf (subf (mulf (mulf (broadcastInDim Vec512 ![] hs (constant (F := Ideal) Scalar0 .f32 0xBF000000#32)) μ) v)
      (mulf (broadcastInDim Vec512 ![] hs (constant (F := Ideal) Scalar0 .f32 0x3F000000#32)) ℓ)) L

theorem gammaRow_apply (v : FVec Ideal Vec512 .f32) (hs : Scalar0.BroadcastsInDim Vec512 ![]) (k : Fin 512) :
    gammaRow v hs (ix1 k) = Ideal.ofBits .f32 0xBF000000#32 * v (ix1 k) := by
  show broadcastInDim Vec512 ![] hs (constant (F := Ideal) Scalar0 .f32 0xBF000000#32) (ix1 k) * v (ix1 k) = _
  rw [broadcastInDim_scalar_apply]
  rfl

theorem betaRow_apply (μ v ℓ L : FVec Ideal Vec512 .f32) (hs : Scalar0.BroadcastsInDim Vec512 ![]) (k : Fin 512) :
    betaRow μ v ℓ L hs (ix1 k)
      = ((Ideal.ofBits .f32 0xBF000000#32 * μ (ix1 k)) * v (ix1 k) - Ideal.ofBits .f32 0x3F000000#32 * ℓ (ix1 k))
        + L (ix1 k) := by
  show ((broadcastInDim Vec512 ![] hs (constant (F := Ideal) Scalar0 .f32 0xBF000000#32) (ix1 k) * μ (ix1 k)) * v (ix1 k)
      - broadcastInDim Vec512 ![] hs (constant (F := Ideal) Scalar0 .f32 0x3F000000#32) (ix1 k) * ℓ (ix1 k)) + L (ix1 k) = _
  rw [broadcastInDim_scalar_apply, broadcastInDim_scalar_apply]
  rfl

/-- The scatter index "row i", as the host builds it: the integer word repeated into a one-entry array. -/
abbrev rowIndex (i : BitVec 32) (hi : Scalar0.BroadcastsInDim One1 ![]) : IVec One1 32 :=
  broadcastInDim One1 ![] hi (constantI Scalar0 32 i)

theorem rowIndex_toInt (i : BitVec 32) (hi : Scalar0.BroadcastsInDim One1 ![]) (n : ℕ) (h : i.toInt = (n : Int))
    (k : One1.Idx) : (rowIndex i hi k).toInt = (n : Int) := by
  show (broadcastInDim One1 ![] hi (constantI Scalar0 32 i) k).toInt = _
  rw [broadcastInDim_scalar_apply]
  exact h

/-- The coefficient table: zeros, then row 0 := v, row 1 := γ, row 2 := β. -/
def table (μ v ℓ L : FVec Ideal Vec512 .f32) (wf : ScatterDims.WF Tbl One1 Vec512 [0] [0] [0] 0)
    (hs : Scalar0.BroadcastsInDim Vec512 ![]) (h8 : Scalar0.BroadcastsInDim Tbl ![])
    (hi : Scalar0.BroadcastsInDim One1 ![]) : FVec Ideal Tbl .f32 :=
  Host.scatter (rowSet 8 512 wf) (fun _ b => b)
    (Host.scatter (rowSet 8 512 wf) (fun _ b => b)
      (Host.scatter (rowSet 8 512 wf) (fun _ b => b)
        (broadcastInDim Tbl ![] h8 (constant (F := Ideal) Scalar0 .f32 0x00000000#32)) (rowIndex 0#32 hi) v)
      (rowIndex 1#32 hi) (gammaRow v hs))
    (rowIndex 2#32 hi) (betaRow μ v ℓ L hs)

section Rows

variable (μ v ℓ L : FVec Ideal Vec512 .f32) (wf : ScatterDims.WF Tbl One1 Vec512 [0] [0] [0] 0)
  (hs : Scalar0.BroadcastsInDim Vec512 ![]) (h8 : Scalar0.BroadcastsInDim Tbl ![])
  (hi : Scalar0.BroadcastsInDim One1 ![]) (k : Fin 512)

/-- Row 0 of the table is α = v. -/
theorem table_row0 : table μ v ℓ L wf hs h8 hi (ix2 (0 : Fin 8) k) = v (ix1 k) := by
  unfold table
  rw [scatter_rowSet_apply wf _ _ _ (2 : Fin 8) (rowIndex_toInt 2#32 hi 2 toInt_2_32) (0 : Fin 8) k,
    if_neg (by decide),
    scatter_rowSet_apply wf _ _ _ (1 : Fin 8) (rowIndex_toInt 1#32 hi 1 toInt_1_32) (0 : Fin 8) k,
    if_neg (by decide),
    scatter_rowSet_apply wf _ _ _ (0 : Fin 8) (rowIndex_toInt 0#32 hi 0 toInt_0_32) (0 : Fin 8) k,
    if_pos rfl]

/-- Row 1 of the table is γ. -/
theorem table_row1 : table μ v ℓ L wf hs h8 hi (ix2 (1 : Fin 8) k) = Ideal.ofBits .f32 0xBF000000#32 * v (ix1 k) := by
  unfold table
  rw [scatter_rowSet_apply wf _ _ _ (2 : Fin 8) (rowIndex_toInt 2#32 hi 2 toInt_2_32) (1 : Fin 8) k,
    if_neg (by decide),
    scatter_rowSet_apply wf _ _ _ (1 : Fin 8) (rowIndex_toInt 1#32 hi 1 toInt_1_32) (1 : Fin 8) k,
    if_pos rfl, gammaRow_apply]

/-- Row 2 of the table is β. -/
theorem table_row2 : table μ v ℓ L wf hs h8 hi (ix2 (2 : Fin 8) k)
    = ((Ideal.ofBits .f32 0xBF000000#32 * μ (ix1 k)) * v (ix1 k) - Ideal.ofBits .f32 0x3F000000#32 * ℓ (ix1 k))
      + L (ix1 k) := by
  unfold table
  rw [scatter_rowSet_apply wf _ _ _ (2 : Fin 8) (rowIndex_toInt 2#32 hi 2 toInt_2_32) (2 : Fin 8) k,
    if_pos rfl, betaRow_apply]

end Rows

end Cert.Gmm

end
-- ==== Proof.LibTypedRef.lean ====
/-
  A typed reference carries a proof that its buffer's type is the value's type, and moves contents between the two by
  transport along that proof. Moving contents to the buffer and back is the identity, whatever the reference: the two
  transports cancel. (A host program that calls an outlined function reads each of the function's stages through such a
  pair; removing the pairs by this equation, rather than by unfolding, keeps the stages' terms small.)
-/
import Idealize.ShloMosaic.Lib.StableHlo

noncomputable section

namespace Cert.Lib

open Idealize.ShloMosaic

/-- Contents moved to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

end Cert.Lib

end
-- ==== Proof.KernelHost.lean ====
/-
  What the kernel's region finds in the two arrays the host computes for it.

  Before the region the host builds, from the argument arrays, the coefficient table — zeros with row 0 the inverse
  variances, row 1 their −½ multiples, row 2 the folded bias — and the transposed means (a change of float format is the
  identity on extended reals). The per-component vectors it uses are the very operations the reference applies to the
  same arguments, so they are named by the reference's stages and never opened here.
-/
import proofs.«150302_j45011257262295_2_alg».proof.Proof.Gen.KernelIdeal.Frame
import proofs.«150302_j45011257262295_2_alg».proof.Proof.Gen.ReferenceIdeal.Read
import Idealize.ShloMosaic.Lib.StableHlo.Run
import proofs.«150302_j45011257262295_2_alg».proof.Proof.Tables
import proofs.«150302_j45011257262295_2_alg».proof.Proof.LibTypedRef

noncomputable section

namespace Cert.Gmm

open Idealize.ShloMosaic Idealize.ShloMosaic.TcCoe Idealize.SL.Sem Idealize.ShloMosaic.StableHlo
open Cert.KernelIdeal Cert.KernelIdeal.Gen Cert.Lib

variable (m : (ℓ : Loc nD τ sig) → Buf (Elt Ideal) ℓ) (c : Dev nD)

set_option maxHeartbeats 16000000 in
set_option maxRecDepth 8192 in
/-- The coefficient table as the region finds it. -/
theorem V_table : (V (F := Ideal) m c main_v24 : Tbl.Idx → EReal)
    = table (Cert.ReferenceIdeal.Read.val_main_v7 (F := Ideal) (m ((c : Thread nD τ).loc main_arg1)))
        (Cert.ReferenceIdeal.Read.val_main_v2 (F := Ideal) (m ((c : Thread nD τ).loc main_arg2)))
        (Cert.ReferenceIdeal.Read.val_main_v22 (F := Ideal) (m ((c : Thread nD τ).loc main_arg2)))
        (Cert.ReferenceIdeal.Read.val_main_v28 (F := Ideal) (m ((c : Thread nD τ).loc main_arg3)))
        scatter_S8x512_S1_S512_0_0_0_0_wf bcast_S_S512 bcast_S_S8x512 bcast_S_S1 := by
  dsimp only [V]
  simp only [hostOps0, hostOps0_1, hostOps0_2, List.flatten_cons, List.flatten_nil, List.append_nil, List.cons_append,
    List.nil_append]
  after_results_simp
  simp only [ofBuf_toBuf]
  rfl

set_option maxHeartbeats 16000000 in
set_option maxRecDepth 8192 in
/-- The transposed means as the region finds them. -/
theorem V_meansT : (V (F := Ideal) m c main_v26 : Sq.Idx → EReal)
    = Cert.ReferenceIdeal.Read.val_main_v8 (F := Ideal) (m ((c : Thread nD τ).loc main_arg1)) := by
  dsimp only [V]
  simp only [hostOps0, hostOps0_1, hostOps0_2, List.flatten_cons, List.flatten_nil, List.append_nil, List.cons_append,
    List.nil_append]
  after_results_simp
  rfl

end Cert.Gmm

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibSoftmaxRow.lean ====
/-
  The max-shifted softmax of one row of extended reals, as a function of the row alone.

  For a row z_0 … z_{n-1} and a starting value c, the row maximum is the fold of max from c over the row, in any
  order (max is commutative and associative). The softmax entry at q is
      exp (z_q − M) / ∑_k exp (z_k − M),      M the row maximum.
  Taking the maximum with c once more changes nothing, since the fold already starts from c.
-/
import Idealize.ShloMosaic.PureOps.Ideal
import Mathlib.Data.Finset.Fold

noncomputable section

namespace Cert.Lib

open Idealize.ShloMosaic

/-- The maximum of a row, folded from the starting value `c`. -/
def rowMax {n : ℕ} (c : EReal) (z : Fin n → EReal) : EReal :=
  (Finset.univ : Finset (Fin n)).fold max c z

/-- The fold starts from `c`, so it is at least `c`: one more maximum with `c` is absorbed. -/
theorem max_rowMax {n : ℕ} (c : EReal) (z : Fin n → EReal) : max c (rowMax c z) = rowMax c z :=
  max_eq_right ((Finset.le_fold_max c).mpr (Or.inl le_rfl))

/-- The softmax of a row, shifted by its maximum: exp (z_q − M) over the sum of the exp (z_k − M). -/
def softmaxRow {n : ℕ} (c : EReal) (z : Fin n → EReal) (q : Fin n) : EReal :=
  Ideal.div (Ideal.exp (z q - rowMax c z)) (∑ k : Fin n, Ideal.exp (z k - rowMax c z))

end Cert.Lib

end
-- ==== Proof.Tile.lean ====
/-
  One tile of 2048 samples against all 512 components, read at an entry.

  A tile's logit at (r, k) is
      (∑_d x(r,d)·m(d,k)) · α(k) + ((∑_d x(r,d)²) · γ(k) + β(k)),
  where x is the tile of samples, m the transposed means and α, γ, β three coefficient rows. The matrix product into a
  zero accumulator is the plain sum over the shared index; the lane sum of squares, kept as a column and repeated across
  the row, is the same number at every k; a coefficient row repeated down the tile is read at its one row.

  From the logits the tile's output is the row softmax shifted by the row maximum: the lane maximum (a fold of max from
  the word of −∞) and the lane sum of the exponentials are each a column repeated across the row, so at (r, q) the output
  is exp (z(r,q) − M_r) / ∑_k exp (z(r,k) − M_r), a function of row r of the logits alone.
-/
import Idealize.ShloMosaic.PureOps.Ideal.Laws
import Idealize.ShloMosaic.Lib.ValueIdx
import Idealize.ShloMosaic.Lib.ValueLayout
import Idealize.ShloMosaic.Lib.Pipeline.Value
import proofs.«150302_j45011257262295_2_alg».proof.Proof.LibColumn
import proofs.«150302_j45011257262295_2_alg».proof.Proof.LibPlainDot
import proofs.«150302_j45011257262295_2_alg».proof.Proof.LibSoftmaxRow
import proofs.«150302_j45011257262295_2_alg».proof.Proof.Shapes

noncomputable section

namespace Cert.Gmm

open Idealize.ShloMosaic Idealize.ShloMosaic.ValueIdx Cert.Lib

/-- The tile's logit at row r, component k, from the tile, the transposed means and the three coefficient rows. -/
def tileLogit (x0 : FVec Ideal Tile .f32) (x1 : FVec Ideal Sq .bf16) (a g b : FVec Ideal OneRow .f32)
    (r : Fin 2048) (k : Fin 512) : EReal :=
  (∑ d : Fin 512, x0 (ix2 r d) * x1 (ix2 d k)) * a (ix2 (0 : Fin 1) k)
    + ((∑ d : Fin 512, x0 (ix2 r d) * x0 (ix2 r d)) * g (ix2 (0 : Fin 1) k) + b (ix2 (0 : Fin 1) k))

/-- A tile's lane sum at row r is the sum over the 512 lanes of that row. -/
theorem tile_rowSum (z : FVec Ideal Tile .f32) (h : Tile.Reduces [1] TileRows) (hφ : FKind.Formats .f32)
    (hacc : (0x00000000#32 : BitVec 32) = FKind.add.neutral .f32 hφ) (r : Fin 2048) :
    multiReduction .add [1] TileRows z 0x00000000#32 h hφ hacc (ix1 r) = ∑ k : Fin 512, z (ix2 r k) :=
  (Ideal.multiReduction_add_single z 0x00000000#32 h hφ hacc (ix1 r)).trans
    (Finset.sum_congr rfl fun k _ => congrArg z (funext fun a => Fin.ext (by
      match a with
      | ⟨0, _⟩ => rfl
      | ⟨1, _⟩ => rfl)))

/-- A tile's lane maximum at row r is the fold of max, from the accumulator's value, over that row. -/
theorem tile_rowMax (z : FVec Ideal Tile .f32) (h : Tile.Reduces [1] TileRows) (hφ : FKind.Formats .f32)
    (hacc : (0xFF800000#32 : BitVec 32) = FKind.maximumf.neutral .f32 hφ) (r : Fin 2048) :
    multiReduction .maximumf [1] TileRows z 0xFF800000#32 h hφ hacc (ix1 r) = rowMax negInf (fun k => z (ix2 r k)) :=
  (Ideal.multiReduction_maximumf_single z 0xFF800000#32 h hφ hacc (ix1 r)).trans
    (congrArg (fun f : Fin 512 → EReal => (Finset.univ : Finset (Fin 512)).fold max negInf f)
      (funext fun k => congrArg z (funext fun a => Fin.ext (by
        match a with
        | ⟨0, _⟩ => rfl
        | ⟨1, _⟩ => rfl))))

/-- A lane reduction's result, kept as a column and repeated across the row, read at (r, k): the reduction at row r. -/
theorem column_spread (v : FVec Ideal TileRows .f32) (hc : TileRows.ShapeCasts TileCol) (hb : TileCol.Broadcasts Tile)
    (r : Fin 2048) (k : Fin 512) :
    broadcastTo Tile (shapeCast TileCol v hc) hb (ix2 r k) = v (ix1 r) :=
  (broadcastTo_a1_ab_apply _ hb r k).trans (shapeCast_a_a1_apply v hc r (0 : Fin 1))

/-- A coefficient row, repeated down the tile, read at (r, k): the row's entry at k. -/
theorem row_spread (a : FVec Ideal OneRow .f32) (h1 : OneRow.ShapeCasts OneRow) (hb : OneRow.Broadcasts Tile)
    (r : Fin 2048) (k : Fin 512) :
    broadcastTo Tile (shapeCast OneRow a h1) hb (ix2 r k) = a (ix2 (0 : Fin 1) k) :=
  (broadcastTo_1b_ab_apply _ hb r k).trans (by rw [shapeCast_self])

/-- THE TILE'S LOGITS at (r, k). -/
theorem tile_logit (wf : DotDims.WF Tile Sq Tile [1] [0] [0] [1] [] [])
    (x0 : FVec Ideal Tile .f32) (x1 : FVec Ideal Sq .bf16) (a g b : FVec Ideal OneRow .f32)
    (hlt : FTy.bits .bf16 < FTy.bits .f32) (hsq : Sq.ShapeCasts Sq) (h : Tile.Reduces [1] TileRows)
    (hφ : FKind.Formats .f32) (hacc : (0x00000000#32 : BitVec 32) = FKind.add.neutral .f32 hφ)
    (hc : TileRows.ShapeCasts TileCol) (h1 : OneRow.ShapeCasts OneRow) (hbr : OneRow.Broadcasts Tile)
    (hbc : TileCol.Broadcasts Tile) (r : Fin 2048) (k : Fin 512) :
    addf (mulf (matmul (plainDot 2048 512 512 wf) none (truncf .bf16 x0 hlt) (shapeCast Sq x1 hsq)
            (constant (F := Ideal) Tile .f32 0x00000000#32))
          (broadcastTo Tile (shapeCast OneRow a h1) hbr))
        (addf (mulf (broadcastTo Tile (shapeCast TileCol
                  (multiReduction .add [1] TileRows (mulf x0 x0) 0x00000000#32 h hφ hacc) hc) hbc)
                (broadcastTo Tile (shapeCast OneRow g h1) hbr))
          (broadcastTo Tile (shapeCast OneRow b h1) hbr)) (ix2 r k)
      = tileLogit x0 x1 a g b r k := by
  have e1 : matmul (plainDot 2048 512 512 wf) none (truncf .bf16 x0 hlt) (shapeCast Sq x1 hsq)
        (constant (F := Ideal) Tile .f32 0x00000000#32) (ix2 r k) = ∑ d : Fin 512, x0 (ix2 r d) * x1 (ix2 d k) :=
    (matmul_zero_apply wf none (truncf .bf16 x0 hlt) (shapeCast Sq x1 hsq) r k).trans
      (Finset.sum_congr rfl fun d _ => by rw [shapeCast_self]; rfl)
  have e3 : broadcastTo Tile (shapeCast TileCol
        (multiReduction .add [1] TileRows (mulf x0 x0) 0x00000000#32 h hφ hacc) hc) hbc (ix2 r k)
      = ∑ d : Fin 512, x0 (ix2 r d) * x0 (ix2 r d) :=
    (column_spread _ hc hbc r k).trans (tile_rowSum (mulf x0 x0) h hφ hacc r)
  show (matmul (plainDot 2048 512 512 wf) none (truncf .bf16 x0 hlt) (shapeCast Sq x1 hsq)
        (constant (F := Ideal) Tile .f32 0x00000000#32) (ix2 r k)) * (broadcastTo Tile (shapeCast OneRow a h1) hbr (ix2 r k))
      + ((broadcastTo Tile (shapeCast TileCol
            (multiReduction .add [1] TileRows (mulf x0 x0) 0x00000000#32 h hφ hacc) hc) hbc (ix2 r k))
          * (broadcastTo Tile (shapeCast OneRow g h1) hbr (ix2 r k))
        + broadcastTo Tile (shapeCast OneRow b h1) hbr (ix2 r k)) = _
  rw [e1, e3, row_spread a h1 hbr r k, row_spread g h1 hbr r k, row_spread b h1 hbr r k]
  rfl

/-- THE TILE'S OUTPUT FROM ITS LOGITS at (r, q): the max-shifted softmax of row r. -/
theorem tile_softmax (z : FVec Ideal Tile .f32) (h : Tile.Reduces [1] TileRows) (hφ : FKind.Formats .f32)
    (hm : (0xFF800000#32 : BitVec 32) = FKind.maximumf.neutral .f32 hφ)
    (ha : (0x00000000#32 : BitVec 32) = FKind.add.neutral .f32 hφ)
    (hc : TileRows.ShapeCasts TileCol) (hbc : TileCol.Broadcasts Tile) (r : Fin 2048) (q : Fin 512) :
    divf (exp (subf z (broadcastTo Tile (shapeCast TileCol
              (multiReduction .maximumf [1] TileRows z 0xFF800000#32 h hφ hm) hc) hbc)))
        (broadcastTo Tile (shapeCast TileCol
          (multiReduction .add [1] TileRows
            (exp (subf z (broadcastTo Tile (shapeCast TileCol
              (multiReduction .maximumf [1] TileRows z 0xFF800000#32 h hφ hm) hc) hbc)))
            0x00000000#32 h hφ ha) hc) hbc) (ix2 r q)
      = softmaxRow negInf (fun k => z (ix2 r k)) q := by
  have eM : ∀ k : Fin 512, broadcastTo Tile (shapeCast TileCol
        (multiReduction .maximumf [1] TileRows z 0xFF800000#32 h hφ hm) hc) hbc (ix2 r k)
      = rowMax negInf (fun k => z (ix2 r k)) := fun k =>
    (column_spread _ hc hbc r k).trans (tile_rowMax z h hφ hm r)
  have eE : ∀ k : Fin 512, exp (subf z (broadcastTo Tile (shapeCast TileCol
        (multiReduction .maximumf [1] TileRows z 0xFF800000#32 h hφ hm) hc) hbc)) (ix2 r k)
      = Ideal.exp (z (ix2 r k) - rowMax negInf (fun k => z (ix2 r k))) := fun k => by
    show Ideal.exp (z (ix2 r k) - broadcastTo Tile (shapeCast TileCol
        (multiReduction .maximumf [1] TileRows z 0xFF800000#32 h hφ hm) hc) hbc (ix2 r k)) = _
    rw [eM k]
  have eS : broadcastTo Tile (shapeCast TileCol
          (multiReduction .add [1] TileRows
            (exp (subf z (broadcastTo Tile (shapeCast TileCol
              (multiReduction .maximumf [1] TileRows z 0xFF800000#32 h hφ hm) hc) hbc)))
            0x00000000#32 h hφ ha) hc) hbc (ix2 r q)
      = ∑ k : Fin 512, Ideal.exp (z (ix2 r k) - rowMax negInf (fun k => z (ix2 r k))) :=
    (column_spread _ hc hbc r q).trans ((tile_rowSum _ h hφ ha r).trans (Finset.sum_congr rfl fun k _ => eE k))
  show Ideal.div (exp (subf z (broadcastTo Tile (shapeCast TileCol
              (multiReduction .maximumf [1] TileRows z 0xFF800000#32 h hφ hm) hc) hbc)) (ix2 r q))
        (broadcastTo Tile (shapeCast TileCol
          (multiReduction .add [1] TileRows
            (exp (subf z (broadcastTo Tile (shapeCast TileCol
              (multiReduction .maximumf [1] TileRows z 0xFF800000#32 h hφ hm) hc) hbc)))
            0x00000000#32 h hφ ha) hc) hbc (ix2 r q)) = _
  rw [eE q, eS]
  rfl

end Cert.Gmm

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.LogitLaw.lean ====
/-
  The scalar identity between two arrangements of one mixture component's log-posterior.

  Write c for the inner product of a sample with a component's mean, s for the sample's squared norm, μ for the mean's
  squared norm, v for the inverse variance, ℓ for the log-determinant term and L for the log-weight term. Expanding the
  squared distance s − 2c + μ and distributing the factors −1/2 and v,
      c·v + (s·(−½·v) + (((−½·μ)·v − ½·ℓ) + L))  =  −½·(((s − 2c + μ)·v) + ℓ) + L.
  Distributivity fails at infinities, so c, s, μ, v, ℓ must be real numbers; L only moves by associativity of +, which
  holds for every extended real, so nothing is asked of it.

  The four float words involved denote −1/2, 1/2, 2 and 512.
-/
import Idealize.ShloMosaic.PureOps.Ideal
import proofs.«150302_j45011257262295_2_alg».proof.Proof.LibRealVar

noncomputable section

namespace Cert.Gmm

open Idealize.ShloMosaic Cert.RealMath

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The log-posterior with the per-component factors folded into three coefficients. -/
def logitFolded (c v s μ ℓ L : EReal) : EReal :=
  c * v + (s * (Ideal.ofBits .f32 0xBF000000#32 * v)
    + (((Ideal.ofBits .f32 0xBF000000#32 * μ) * v - Ideal.ofBits .f32 0x3F000000#32 * ℓ) + L))

/-- The log-posterior through the squared distance. -/
def logitDirect (c v s μ ℓ L : EReal) : EReal :=
  Ideal.ofBits .f32 0xBF000000#32 * (((s - Ideal.ofBits .f32 0x40000000#32 * c) + μ) * v + ℓ) + L

/-- The two arrangements agree when everything but the log-weight term is a real number. -/
theorem logit_law {c v s μ ℓ : EReal} (L : EReal) (hc : IsReal c) (hv : IsReal v) (hs : IsReal s) (hμ : IsReal μ)
    (hℓ : IsReal ℓ) : logitFolded c v s μ ℓ L = logitDirect c v s μ ℓ L := by
  obtain ⟨c, rfl⟩ := hc; obtain ⟨v, rfl⟩ := hv; obtain ⟨s, rfl⟩ := hs; obtain ⟨μ, rfl⟩ := hμ; obtain ⟨ℓ, rfl⟩ := hℓ
  unfold logitFolded logitDirect
  rw [ofBits_neg_half, ofBits_half, ofBits_two]
  simp only [← EReal.coe_mul, ← EReal.coe_sub, ← EReal.coe_add]
  rw [← add_assoc, ← add_assoc]
  simp only [← EReal.coe_add]
  refine congrArg (fun t : ℝ => ((t : ℝ) : EReal) + L) ?_
  ring

end Cert.Gmm

end
-- ==== Proof.HostTail.lean ====
/-
  The host's spelling of the same computation over the whole [32768, 512] array, read at an entry.

  A column of per-sample numbers [32768] is placed on axis 0 of [32768, 1] and repeated across the 512 components; a row
  of per-component numbers [512] is placed on axis 1 of [1, 512] and repeated down the samples; a scalar is repeated
  everywhere. So the log-posterior through the squared distance,
      −½ · (((s_b − 2·c_{b,k}) + μ_k) · v_k + ℓ_k) + L_k,
  is read at (b, k) from the entries s_b, c_{b,k}, μ_k, v_k, ℓ_k, L_k.

  The host's softmax takes the row maximum by a reduction from the word of −∞, takes the maximum with that word once
  more (absorbed: the fold already starts there), subtracts, exponentiates, sums each row from 0 and divides: at (b, q)
  it is exp (z(b,q) − M_b) / ∑_k exp (z(b,k) − M_b), a function of row b of the logits alone.
-/
import Idealize.ShloMosaic.PureOps.Ideal.Laws
import Idealize.ShloMosaic.Lib.ValueIdx
import Idealize.ShloMosaic.Lib.Pipeline.Value
import proofs.«150302_j45011257262295_2_alg».proof.Proof.LibColumn
import proofs.«150302_j45011257262295_2_alg».proof.Proof.LibSoftmaxRow
import proofs.«150302_j45011257262295_2_alg».proof.Proof.Shapes
import proofs.«150302_j45011257262295_2_alg».proof.Proof.LogitLaw

noncomputable section

namespace Cert.Gmm

open Idealize.ShloMosaic Idealize.ShloMosaic.ValueIdx Cert.Lib

/-- The host's row sum at row b: the initial value plus the sum over the 512 entries of that row. -/
theorem host_rowSum (z : FVec Ideal Big .f32) (init : Scalar0.Idx → EReal) (hr : Big.ReducesTo [1] BigRows)
    (hu : 0 < Scalar0.numel) (b : Fin 32768) :
    Host.reduceAdd (F := Ideal) z init hr hu (ix1 b) = init (Shape.Idx.first hu) + ∑ k : Fin 512, z (ix2 b k) := by
  show Ideal.hostReduceAdd hr z (init (Shape.Idx.first hu)) (ix1 b) = _
  rw [Ideal.hostReduceAdd_single hr (by decide)]
  exact congrArg (_ + ·) (Finset.sum_congr rfl fun k _ => congrArg z (funext fun a => Fin.ext (by
    match a with
    | ⟨0, _⟩ => rfl
    | ⟨1, _⟩ => rfl)))

/-- The host's row maximum at row b: the fold of max, from the initial value, over that row. -/
theorem host_rowMax (z : FVec Ideal Big .f32) (init : Scalar0.Idx → EReal) (hr : Big.ReducesTo [1] BigRows)
    (hu : 0 < Scalar0.numel) (b : Fin 32768) :
    Host.reduce (FloatOps.maximumf (F := Ideal) (φ := .f32)) z init hr hu (ix1 b)
      = rowMax (init (Shape.Idx.first hu)) (fun k => z (ix2 b k)) :=
  (Host.reduce_eq_fold_single (FloatOps.maximumf (F := Ideal) (φ := .f32)) z init hr (by decide) hu (ix1 b)).trans
    (congrArg (fun f : Fin 512 → EReal => (Finset.univ : Finset (Fin 512)).fold max (init (Shape.Idx.first hu)) f)
      (funext fun k => congrArg z (funext fun a => Fin.ext (by
        match a with
        | ⟨0, _⟩ => rfl
        | ⟨1, _⟩ => rfl))))

/-- A per-sample vector placed as a column and repeated across the components, read at (b, k): its entry at b. -/
theorem sample_spread (v : FVec Ideal BigRows .f32) (ha : BigRows.BroadcastsInDim BigCol ![0])
    (hb : BigCol.BroadcastsInDim Big ![0, 1]) (b : Fin 32768) (k : Fin 512) :
    broadcastInDim Big ![0, 1] hb (broadcastInDim BigCol ![0] ha v) (ix2 b k) = v (ix1 b) :=
  (broadcastInDim_a1_ab_apply _ hb b k).trans (broadcastInDim_a_a1_apply v ha b (0 : Fin 1))

/-- A per-component vector placed as a row and repeated down the samples, read at (b, k): its entry at k. -/
theorem component_spread (v : FVec Ideal Vec512 .f32) (hc : Vec512.BroadcastsInDim OneRow ![1])
    (hd : OneRow.BroadcastsInDim Big ![0, 1]) (b : Fin 32768) (k : Fin 512) :
    broadcastInDim Big ![0, 1] hd (broadcastInDim OneRow ![1] hc v) (ix2 b k) = v (ix1 k) :=
  (broadcastInDim_1b_ab_apply _ hd b k).trans (broadcastInDim_b_1b_apply v hc (0 : Fin 1) k)

/-- A scalar word repeated over the whole array, read anywhere: the word's value. -/
theorem word_spread (w : BitVec 32) (hs : Scalar0.BroadcastsInDim Big ![]) (i : Big.Idx) :
    broadcastInDim Big ![] hs (constant (F := Ideal) Scalar0 .f32 w) i = Ideal.ofBits .f32 w :=
  broadcastInDim_scalar_apply _ hs i

/-- The host's logits over the whole array, from the cross products c, the samples' squared norms s and the
    per-component vectors μ, v, ℓ, L. -/
def hostLogits (c : FVec Ideal Big .f32) (s : FVec Ideal BigRows .f32) (μ v ℓ L : FVec Ideal Vec512 .f32)
    (ha : BigRows.BroadcastsInDim BigCol ![0]) (hb : BigCol.BroadcastsInDim Big ![0, 1])
    (hs : Scalar0.BroadcastsInDim Big ![]) (hc : Vec512.BroadcastsInDim OneRow ![1])
    (hd : OneRow.BroadcastsInDim Big ![0, 1]) : FVec Ideal Big .f32 :=
  addf (mulf (broadcastInDim Big ![] hs (constant (F := Ideal) Scalar0 .f32 0xBF000000#32))
      (addf (mulf (addf (subf (broadcastInDim Big ![0, 1] hb (broadcastInDim BigCol ![0] ha s))
                (mulf (broadcastInDim Big ![] hs (constant (F := Ideal) Scalar0 .f32 0x40000000#32)) c))
              (broadcastInDim Big ![0, 1] hd (broadcastInDim OneRow ![1] hc μ)))
            (broadcastInDim Big ![0, 1] hd (broadcastInDim OneRow ![1] hc v)))
        (broadcastInDim Big ![0, 1] hd (broadcastInDim OneRow ![1] hc ℓ))))
    (broadcastInDim Big ![0, 1] hd (broadcastInDim OneRow ![1] hc L))

/-- THE HOST'S LOGIT at (b, k): the log-posterior through the squared distance, of the entries at b and k. -/
theorem hostLogits_apply (c : FVec Ideal Big .f32) (s : FVec Ideal BigRows .f32) (μ v ℓ L : FVec Ideal Vec512 .f32)
    (ha : BigRows.BroadcastsInDim BigCol ![0]) (hb : BigCol.BroadcastsInDim Big ![0, 1])
    (hs : Scalar0.BroadcastsInDim Big ![]) (hc : Vec512.BroadcastsInDim OneRow ![1])
    (hd : OneRow.BroadcastsInDim Big ![0, 1]) (b : Fin 32768) (k : Fin 512) :
    hostLogits c s μ v ℓ L ha hb hs hc hd (ix2 b k)
      = logitDirect (c (ix2 b k)) (v (ix1 k)) (s (ix1 b)) (μ (ix1 k)) (ℓ (ix1 k)) (L (ix1 k)) := by
  unfold hostLogits logitDirect
  simp only [addf, mulf, subf, Ideal.addf_def, Ideal.mulf_def, Ideal.subf_def]
  rw [word_spread, word_spread, sample_spread s ha hb b k, component_spread μ hc hd b k, component_spread v hc hd b k,
    component_spread ℓ hc hd b k, component_spread L hc hd b k]

/-- The row maxima as the host spreads them: the reduction from the word of −∞, the maximum with that word once more,
    placed as a column and repeated across the components. -/
def hostRowMaxSpread (z : FVec Ideal Big .f32) (hr : Big.ReducesTo [1] BigRows) (hu : 0 < Scalar0.numel)
    (h0 : Scalar0.BroadcastsInDim BigRows ![]) (ha : BigRows.BroadcastsInDim BigCol ![0])
    (hb : BigCol.BroadcastsInDim Big ![0, 1]) : FVec Ideal Big .f32 :=
  broadcastInDim Big ![0, 1] hb (broadcastInDim BigCol ![0] ha
    (maximumf (broadcastInDim BigRows ![] h0 (constant (F := Ideal) Scalar0 .f32 0xFF800000#32))
      (Host.reduce (FloatOps.maximumf (F := Ideal) (φ := .f32)) z (constant (F := Ideal) Scalar0 .f32 0xFF800000#32) hr hu)))

/-- The host's softmax of a logits array over its rows. -/
def hostSoftmax (z : FVec Ideal Big .f32) (hr : Big.ReducesTo [1] BigRows) (hu : 0 < Scalar0.numel)
    (h0 : Scalar0.BroadcastsInDim BigRows ![]) (ha : BigRows.BroadcastsInDim BigCol ![0])
    (hb : BigCol.BroadcastsInDim Big ![0, 1]) : FVec Ideal Big .f32 :=
  Host.divf
    (Host.exp (subf z (hostRowMaxSpread z hr hu h0 ha hb)))
    (broadcastInDim Big ![0, 1] hb (broadcastInDim BigCol ![0] ha
      (Host.reduceAdd (F := Ideal) (Host.exp (subf z (hostRowMaxSpread z hr hu h0 ha hb)))
        (constant (F := Ideal) Scalar0 .f32 0x00000000#32) hr hu)))

/-- A vector of per-sample numbers, maximised with the word of −∞ and spread over the array, read at (b, k). Stated
    over an arbitrary vector, so that a row reduction put in its place is never opened. -/
theorem maxSpread_apply (v : FVec Ideal BigRows .f32) (h0 : Scalar0.BroadcastsInDim BigRows ![])
    (ha : BigRows.BroadcastsInDim BigCol ![0]) (hb : BigCol.BroadcastsInDim Big ![0, 1]) (b : Fin 32768) (k : Fin 512) :
    broadcastInDim Big ![0, 1] hb (broadcastInDim BigCol ![0] ha
        (maximumf (broadcastInDim BigRows ![] h0 (constant (F := Ideal) Scalar0 .f32 0xFF800000#32)) v)) (ix2 b k)
      = max negInf (v (ix1 b)) := by
  rw [sample_spread _ ha hb b k]
  show max (broadcastInDim BigRows ![] h0 (constant (F := Ideal) Scalar0 .f32 0xFF800000#32) (ix1 b)) (v (ix1 b)) = _
  rw [broadcastInDim_scalar_apply _ h0 (ix1 b)]
  rfl

/-- The exponential of a shifted array, at an entry (over arbitrary arrays). -/
theorem expShift_apply (z s : FVec Ideal Big .f32) (i : Big.Idx) :
    Host.exp (F := Ideal) (subf z s) i = Ideal.exp (z i - s i) := rfl

/-- The host's quotient of two arrays, at an entry (over arbitrary arrays). -/
theorem hostQuot_apply (e s : FVec Ideal Big .f32) (i : Big.Idx) :
    Host.divf (F := Ideal) e s i = Ideal.div (e i) (s i) := rfl

/-- The spread row maxima at (b, k): the maximum of row b, folded from the word of −∞. -/
theorem hostRowMaxSpread_apply (z : FVec Ideal Big .f32) (hr : Big.ReducesTo [1] BigRows) (hu : 0 < Scalar0.numel)
    (h0 : Scalar0.BroadcastsInDim BigRows ![]) (ha : BigRows.BroadcastsInDim BigCol ![0])
    (hb : BigCol.BroadcastsInDim Big ![0, 1]) (b : Fin 32768) (k : Fin 512) :
    hostRowMaxSpread z hr hu h0 ha hb (ix2 b k) = rowMax negInf (fun k => z (ix2 b k)) := by
  unfold hostRowMaxSpread
  rw [maxSpread_apply _ h0 ha hb b k, host_rowMax z _ hr hu b]
  exact max_rowMax negInf _

/-- THE HOST'S SOFTMAX at (b, q): the max-shifted softmax of row b. -/
theorem hostSoftmax_apply (z : FVec Ideal Big .f32) (hr : Big.ReducesTo [1] BigRows) (hu : 0 < Scalar0.numel)
    (h0 : Scalar0.BroadcastsInDim BigRows ![]) (ha : BigRows.BroadcastsInDim BigCol ![0])
    (hb : BigCol.BroadcastsInDim Big ![0, 1]) (b : Fin 32768) (q : Fin 512) :
    hostSoftmax z hr hu h0 ha hb (ix2 b q) = softmaxRow negInf (fun k => z (ix2 b k)) q := by
  have eE : ∀ k : Fin 512, Host.exp (F := Ideal) (subf z (hostRowMaxSpread z hr hu h0 ha hb)) (ix2 b k)
      = Ideal.exp (z (ix2 b k) - rowMax negInf (fun k => z (ix2 b k))) := fun k => by
    rw [expShift_apply, hostRowMaxSpread_apply z hr hu h0 ha hb b k]
  have hz : constant (F := Ideal) Scalar0 .f32 0x00000000#32 (Shape.Idx.first hu) = 0 := Ideal.ofBits_zero_f32
  unfold hostSoftmax
  rw [hostQuot_apply, eE q, sample_spread _ ha hb b q, host_rowSum _ _ hr hu b, hz, zero_add]
  exact congrArg (Ideal.div _) (Finset.sum_congr rfl fun k _ => eE k)

end Cert.Gmm

end
-- ==== Proof.RefStages.lean ====
/-
  The reference program's stages, read.

  Its per-component vectors — the inverse variance v = exp (−log-variance), the squared norm μ of each mean, the
  log-determinant term ℓ = 512 · log-variance — its per-sample squared norm s and its cross products c are real numbers
  when the inputs are: finite sums, products and the exponential of reals are real. Its logits are the host's
  log-posterior through the squared distance of these stages, and its result is the host's row softmax of the logits.
-/
import proofs.«150302_j45011257262295_2_alg».proof.Proof.Gen.ReferenceIdeal.Read
import proofs.«150302_j45011257262295_2_alg».proof.Proof.LibRealVar
import proofs.«150302_j45011257262295_2_alg».proof.Proof.LogitLaw
import proofs.«150302_j45011257262295_2_alg».proof.Proof.HostTail

noncomputable section

namespace Cert.Gmm

open Idealize.ShloMosaic Idealize.ShloMosaic.ValueIdx Cert.Lib Cert.RealMath
open Cert.ReferenceIdeal Cert.ReferenceIdeal.Read

variable (X0 : FVec Ideal Big .f32) (X1 : FVec Ideal Sq .f32) (X2 : FVec Ideal Col512 .f32) (X3 : FVec Ideal Vec512 .f32)

/-- The inverse variance is a real: the exponential of minus a real. -/
theorem invVar_real (h2 : ∀ i, IsReal (X2 i)) (i : Vec512.Idx) : IsReal (val_main_v2 (F := Ideal) X2 i) := by
  obtain ⟨r, hr⟩ := h2 (idx_main_v0 i)
  refine ⟨Real.exp (-r), ?_⟩
  rw [val_main_v2_apply, val_main_v1_apply, val_main_v0_apply, hr]
  show Ideal.exp (-((r : ℝ) : EReal)) = _
  rw [← EReal.coe_neg]
  rfl

/-- A sample's squared norm is a real. -/
theorem sampleSq_real (h0 : ∀ i, IsReal (X0 i)) (i : BigRows.Idx) : IsReal (val_main_v4 (F := Ideal) X0 i) := by
  rw [val_main_v4_apply]
  refine isReal_add ⟨0, ?_⟩ (isReal_sum _ _ fun k _ => isReal_mul (h0 _) (h0 _))
  show Ideal.ofBits .f32 0x00000000#32 = _
  rw [Ideal.ofBits_zero_f32]; rfl

/-- A mean's squared norm is a real. -/
theorem meanSq_real (h1 : ∀ i, IsReal (X1 i)) (i : Vec512.Idx) : IsReal (val_main_v7 (F := Ideal) X1 i) := by
  rw [val_main_v7_apply]
  refine isReal_add ⟨0, ?_⟩ (isReal_sum _ _ fun k _ => isReal_mul (h1 _) (h1 _))
  show Ideal.ofBits .f32 0x00000000#32 = _
  rw [Ideal.ofBits_zero_f32]; rfl

/-- The log-determinant term 512 · log-variance is a real. -/
theorem logDet_real (h2 : ∀ i, IsReal (X2 i)) (i : Vec512.Idx) : IsReal (val_main_v22 (F := Ideal) X2 i) := by
  rw [val_main_v22_apply, val_main_v21_apply, val_main_v20_apply]
  refine isReal_mul ⟨512, ?_⟩ (h2 _)
  show Ideal.ofBits .f32 0x44000000#32 = _
  exact ofBits_512

/-- A cross product ∑_d x(b,d)·m(k,d) is a real. -/
theorem cross_real (h0 : ∀ i, IsReal (X0 i)) (h1 : ∀ i, IsReal (X1 i)) (i : Big.Idx) :
    IsReal (val_main_v9 (F := Ideal) X0 X1 i) := by
  rw [val_main_v9_apply]
  exact isReal_sum _ _ fun k _ => isReal_mul (h0 _) (by rw [val_main_v8_apply]; exact h1 _)

/-- The reference's logits are the host's log-posterior of its stages. -/
theorem ref_logits_eq : val_main_v31 (F := Ideal) X0 X1 X2 X3
    = hostLogits (val_main_v9 (F := Ideal) X0 X1) (val_main_v4 (F := Ideal) X0) (val_main_v7 (F := Ideal) X1)
        (val_main_v2 (F := Ideal) X2) (val_main_v22 (F := Ideal) X2) (val_main_v28 (F := Ideal) X3)
        Cert.ReferenceIdeal.Gen.bcast_S32768_S32768x1_0 Cert.ReferenceIdeal.Gen.bcast_S32768x1_S32768x512_0_1
        Cert.ReferenceIdeal.Gen.bcast_S_S32768x512 Cert.ReferenceIdeal.Gen.bcast_S512_S1x512_1
        Cert.ReferenceIdeal.Gen.bcast_S1x512_S32768x512_0_1 := rfl

/-- The reference's result is the host's row softmax of its logits. -/
theorem ref_out_eq : val_main_v42 (F := Ideal) X0 X1 X2 X3
    = hostSoftmax (val_main_v31 (F := Ideal) X0 X1 X2 X3) Cert.ReferenceIdeal.Gen.reducesTo_S32768x512_S32768_d1
        Cert.ReferenceIdeal.Gen.h_S_ Cert.ReferenceIdeal.Gen.bcast_S_S32768 Cert.ReferenceIdeal.Gen.bcast_S32768_S32768x1_0
        Cert.ReferenceIdeal.Gen.bcast_S32768x1_S32768x512_0_1 := rfl

/-- THE REFERENCE'S LOGIT at (b, k). -/
theorem ref_logit_apply (b : Fin 32768) (k : Fin 512) :
    val_main_v31 (F := Ideal) X0 X1 X2 X3 (ix2 b k)
      = logitDirect (val_main_v9 (F := Ideal) X0 X1 (ix2 b k)) (val_main_v2 (F := Ideal) X2 (ix1 k))
          (val_main_v4 (F := Ideal) X0 (ix1 b)) (val_main_v7 (F := Ideal) X1 (ix1 k))
          (val_main_v22 (F := Ideal) X2 (ix1 k)) (val_main_v28 (F := Ideal) X3 (ix1 k)) := by
  rw [ref_logits_eq]
  exact hostLogits_apply _ _ _ _ _ _ _ _ _ _ _ b k

/-- THE REFERENCE'S RESULT at (b, q): the max-shifted softmax of row b of its logits. -/
theorem ref_out_apply (b : Fin 32768) (q : Fin 512) :
    val_main_v42 (F := Ideal) X0 X1 X2 X3 (ix2 b q)
      = softmaxRow negInf (fun k => val_main_v31 (F := Ideal) X0 X1 X2 X3 (ix2 b k)) q := by
  rw [ref_out_eq]
  exact hostSoftmax_apply _ _ _ _ _ _ b q

end Cert.Gmm

end
-- ==== Proof.Block.lean ====
/-
  One grid point of the kernel against the reference, entry by entry.

  The body's one store writes, at (r, q), the row softmax of the tile's logits (the tile lemmas). Suppose the tile holds
  rows of the sample array starting at some row, the second operand holds the transposed means, and the three coefficient
  rows hold α = v, γ = −½·v and β = ((−½·μ)·v − ½·ℓ) + L of the reference's own per-component stages. Then the tile's
  logit at (r, k) is the folded arrangement of the log-posterior of sample b (the tile's row r), which equals the
  reference's arrangement through the squared distance because all the numbers involved are real; and so the tile's
  output at (r, q) is the reference's result at (b, q).
-/
import proofs.«150302_j45011257262295_2_alg».proof.Proof.Gen.KernelIdeal.Skeleton
import proofs.«150302_j45011257262295_2_alg».proof.Proof.Tile
import proofs.«150302_j45011257262295_2_alg».proof.Proof.RefStages

noncomputable section

namespace Cert.Gmm

open Idealize.ShloMosaic Idealize.ShloMosaic.ValueIdx Cert.Lib Cert.RealMath
open Cert.ReferenceIdeal.Read

/-- THE BODY'S PAYLOAD at (r, q): the row softmax of the tile's logits. -/
theorem pay_apply (xb : FVec Ideal Tile .f32) (mt : FVec Ideal Sq .bf16) (a g bb : FVec Ideal OneRow .f32)
    (r : Fin 2048) (q : Fin 512) :
    Cert.KernelIdeal.Gen.k0_pay1 (F := Ideal) xb mt a g bb (ix2 r q)
      = softmaxRow negInf (fun k => tileLogit xb mt a g bb r k) q :=
  (tile_softmax _ Cert.KernelIdeal.Gen.reduces_S2048x512_S2048 (.inl rfl) rfl rfl
      Cert.KernelIdeal.Gen.shapeCasts_S2048_S2048x1 Cert.KernelIdeal.Gen.broadcasts_S2048x1_S2048x512 r q).trans
    (congrArg (fun z : Fin 512 → EReal => softmaxRow negInf z q) (funext fun k =>
      tile_logit Cert.KernelIdeal.Gen.dot_S2048x512_S512x512_S2048x512_1_0_0_1_n_n_wf xb mt a g bb
        Cert.KernelIdeal.Gen.bitsLt_bf16_f32 Cert.KernelIdeal.Gen.shapeCasts_S512x512_S512x512
        Cert.KernelIdeal.Gen.reduces_S2048x512_S2048 (.inl rfl) rfl Cert.KernelIdeal.Gen.shapeCasts_S2048_S2048x1
        Cert.KernelIdeal.Gen.shapeCasts_S1x512_S1x512 Cert.KernelIdeal.Gen.broadcasts_S1x512_S2048x512
        Cert.KernelIdeal.Gen.broadcasts_S2048x1_S2048x512 r k))

section Against

variable (X0 : FVec Ideal Big .f32) (X1 : FVec Ideal Sq .f32) (X2 : FVec Ideal Col512 .f32) (X3 : FVec Ideal Vec512 .f32)
  (h0 : ∀ i, IsReal (X0 i)) (h1 : ∀ i, IsReal (X1 i)) (h2 : ∀ i, IsReal (X2 i))
  (xb : FVec Ideal Tile .f32) (mt : FVec Ideal Sq .bf16) (a g bb : FVec Ideal OneRow .f32) (b : Fin 32768) (r : Fin 2048)
  (hx : ∀ d : Fin 512, xb (ix2 r d) = X0 (ix2 b d))
  (hm : ∀ (d k : Fin 512), mt (ix2 d k) = val_main_v8 (F := Ideal) X1 (ix2 d k))
  (ha : ∀ k : Fin 512, a (ix2 (0 : Fin 1) k) = val_main_v2 (F := Ideal) X2 (ix1 k))
  (hg : ∀ k : Fin 512, g (ix2 (0 : Fin 1) k) = Ideal.ofBits .f32 0xBF000000#32 * val_main_v2 (F := Ideal) X2 (ix1 k))
  (hb : ∀ k : Fin 512, bb (ix2 (0 : Fin 1) k)
    = ((Ideal.ofBits .f32 0xBF000000#32 * val_main_v7 (F := Ideal) X1 (ix1 k)) * val_main_v2 (F := Ideal) X2 (ix1 k)
        - Ideal.ofBits .f32 0x3F000000#32 * val_main_v22 (F := Ideal) X2 (ix1 k)) + val_main_v28 (F := Ideal) X3 (ix1 k))

include h0 h1 h2 hx hm ha hg hb

/-- The tile's logit at (r, k) is the reference's logit at (b, k). -/
theorem block_logit (k : Fin 512) :
    tileLogit xb mt a g bb r k = val_main_v31 (F := Ideal) X0 X1 X2 X3 (ix2 b k) := by
  have e1 : ∑ d : Fin 512, xb (ix2 r d) * mt (ix2 d k) = val_main_v9 (F := Ideal) X0 X1 (ix2 b k) := by
    rw [val_main_v9_apply]
    refine Finset.sum_congr rfl fun d _ => ?_
    rw [hx d, hm d k]
    have el : lidx_main_v9 (ix2 b k) d = ix2 b d := funext fun ax => Fin.ext (by
      match ax with
      | ⟨0, _⟩ => rfl
      | ⟨1, _⟩ => rfl)
    have er : ridx_main_v9 (ix2 b k) d = ix2 d k := funext fun ax => Fin.ext (by
      match ax with
      | ⟨0, _⟩ => rfl
      | ⟨1, _⟩ => rfl)
    rw [el, er]
  have e2 : ∑ d : Fin 512, xb (ix2 r d) * xb (ix2 r d) = val_main_v4 (F := Ideal) X0 (ix1 b) := by
    rw [val_main_v4_apply]
    show _ = Ideal.ofBits .f32 0x00000000#32 + _
    rw [Ideal.ofBits_zero_f32, zero_add]
    refine Finset.sum_congr rfl fun d _ => ?_
    rw [hx d]
    have ei : idx_main_v4 (ix1 b) d = ix2 b d := funext fun ax => Fin.ext (by
      match ax with
      | ⟨0, _⟩ => rfl
      | ⟨1, _⟩ => rfl)
    show _ = X0 (idx_main_v4 (ix1 b) d) * X0 (idx_main_v4 (ix1 b) d)
    rw [ei]
  unfold tileLogit
  rw [e1, e2, ha k, hg k, hb k]
  exact (logit_law (val_main_v28 (F := Ideal) X3 (ix1 k)) (cross_real X0 X1 h0 h1 _) (invVar_real X2 h2 _)
      (sampleSq_real X0 h0 _) (meanSq_real X1 h1 _) (logDet_real X2 h2 _)).trans (ref_logit_apply X0 X1 X2 X3 b k).symm

/-- The tile's output at (r, q) is the reference's result at (b, q). -/
theorem block_out (q : Fin 512) :
    Cert.KernelIdeal.Gen.k0_pay1 (F := Ideal) xb mt a g bb (ix2 r q) = val_main_v42 (F := Ideal) X0 X1 X2 X3 (ix2 b q) :=
  (pay_apply xb mt a g bb r q).trans
    ((congrArg (fun z : Fin 512 → EReal => softmaxRow negInf z q) (funext fun k =>
        block_logit X0 X1 X2 X3 h0 h1 h2 xb mt a g bb b r hx hm ha hg hb k)).trans
      (ref_out_apply X0 X1 X2 X3 b q).symm)

end Against

end Cert.Gmm

end
-- ==== Proof.KernelValue.lean ====
/-
  From the kernel's blocks to its whole result array.

  The grid has 16 points; point t stages rows 2048·t … 2048·t + 2047 of the samples (all 512 columns), the whole
  transposed means and the whole coefficient table, and writes back rows 2048·t … of the result. So the tile's row r
  is sample b = 2048·t + r, the body's three coefficient rows are rows 0, 1, 2 of the table, and what point t writes
  back is block t of the reference's result (the block lemma). Every row b of the result lies in the block of point
  b / 2048, so the blocks cover the array and the array ends holding the reference's result.
-/
import proofs.«150302_j45011257262295_2_alg».proof.Proof.Gen.KernelIdeal.Value
import proofs.«150302_j45011257262295_2_alg».proof.Proof.KernelHost
import proofs.«150302_j45011257262295_2_alg».proof.Proof.Block

noncomputable section

namespace Cert.Gmm

open Idealize.ShloMosaic Idealize.ShloMosaic.TcCoe Idealize.SL.Sem Idealize.ShloMosaic.ValueIdx
open Cert.KernelIdeal Cert.KernelIdeal.Gen Cert.RealMath
open Idealize.ShloMosaic.Pipeline (Dat)

variable (m : (ℓ : Loc nD τ sig) → Buf (Elt Ideal) ℓ) (ρ : Dev nD → PrngReg) (c : Dev nD)

theorem zero_off : (![0, 0] : Fin 2 → Nat) = fun _ => 0 := funext fun a => by fin_cases a <;> rfl

/-- The printed index maps, decided over the 16 grid points: the sample and result windows move one block of rows
    per point, the other two stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The sample that row r of point t's tile holds. -/
def rowOf (t : Fin cfg0.N) (r : Fin 2048) : Fin 32768 :=
  ⟨t.val * 2048 + r.val, by have := t.isLt; have h : cfg0.N = 16 := N_0; have := r.isLt; omega⟩

/-- The sample tile at point t, row r: sample 2048·t + r. -/
theorem xblk_apply (t : Fin cfg0.N) (r : Fin 2048) (d : Fin 512) :
    iblk m c 0 t (ix2 r d) = m ((c : Thread nD τ).loc main_arg0) (ix2 (rowOf t r) d) := by
  obtain ⟨e0, e1, -⟩ := idx_facts t
  show V m c main_arg0 (((cfg0.win 0).blk t).view.emb (ix2 r d)) = _
  refine (congrFun (V_main_arg0 m c) _).trans (congrArg _ (funext fun a => Fin.ext ?_))
  match a with
  | ⟨0, _⟩ => show win0_0.index t (0 : Fin 2) * 2048 + 1 * r.val = t.val * 2048 + r.val; omega
  | ⟨1, _⟩ => show win0_0.index t (1 : Fin 2) * 512 + 1 * d.val = d.val; omega

/-- The second operand at any point: the transposed means. -/
theorem mblk_apply (t : Fin cfg0.N) (d k : Fin 512) :
    iblk m c 1 t (ix2 d k)
      = Cert.ReferenceIdeal.Read.val_main_v8 (F := Ideal) (m ((c : Thread nD τ).loc main_arg1)) (ix2 d k) := by
  obtain ⟨-, -, e2, e3, -⟩ := idx_facts t
  show V m c main_v26 (((cfg0.win 1).blk t).view.emb (ix2 d k)) = _
  refine (congrFun (V_meansT m c) _).trans (congrArg _ (funext fun a => Fin.ext ?_))
  match a with
  | ⟨0, _⟩ => show win0_1.index t (0 : Fin 2) * 512 + 1 * d.val = d.val; omega
  | ⟨1, _⟩ => show win0_1.index t (1 : Fin 2) * 512 + 1 * k.val = k.val; omega

/-- Row i of the table block at any point, through a one-row rectangle starting at row i: row i of the table. -/
theorem tblk_apply (t : Fin cfg0.N) (i : Fin 8) (k : Fin 512)
    (inb : ∀ a, (![i.val, 0] : Fin 2 → Nat) a + S1x512.size a ≤ S8x512.size a) :
    View.ld (iblk m c 2 t) (Rect.unit (s := S8x512) ![i.val, 0] S1x512.size inb) (ix2 (0 : Fin 1) k)
      = V m c main_v24 (ix2 i k) := by
  obtain ⟨-, -, -, -, e4, e5, -⟩ := idx_facts t
  show V m c main_v24 (((cfg0.win 2).blk t).view.emb
    ((Rect.unit (s := S8x512) ![i.val, 0] S1x512.size inb).idx (ix2 (0 : Fin 1) k))) = _
  refine congrArg _ (funext fun a => Fin.ext ?_)
  match a with
  | ⟨0, _⟩ => show win0_2.index t (0 : Fin 2) * 8 + 1 * (i.val + 1 * 0) = i.val; omega
  | ⟨1, _⟩ => show win0_2.index t (1 : Fin 2) * 512 + 1 * (0 + 1 * k.val) = k.val; omega

section Final

variable (h0 : ∀ i, IsReal (m ((c : Thread nD τ).loc main_arg0) i))
  (h1 : ∀ i, IsReal (m ((c : Thread nD τ).loc main_arg1) i))
  (h2 : ∀ i, IsReal (m ((c : Thread nD τ).loc main_arg2) i))

/-- The reference's result of the kernel's own argument arrays. -/
abbrev spec : S32768x512.Idx → EReal :=
  Cert.ReferenceIdeal.Read.val_main_v42 (F := Ideal) (m ((c : Thread nD τ).loc main_arg0))
    (m ((c : Thread nD τ).loc main_arg1)) (m ((c : Thread nD τ).loc main_arg2)) (m ((c : Thread nD τ).loc main_arg3))

include h0 h1 h2

/-- WHAT POINT t WRITES BACK is block t of the reference's result. -/
theorem flushed_eq (t : Fin cfg0.N) :
    (dats (F := Ideal) m 0 c).flushed 3 t = ((cfg0.win 3).blk t).view.read (Elt Ideal) (spec m c) := by
  rw [Cert.KernelIdeal.Value.flushed3]
  unfold out0_3
  rw [View.canon_unit_zero zero_off]
  simp only [View.ld_unit_zero (S := S2048x512) zero_off, View.ld_unit_zero (S := S512x512) zero_off]
  funext j
  obtain ⟨r, q, rfl⟩ : ∃ (r : Fin 2048) (q : Fin 512), j = ix2 r q := ⟨j 0, j 1, eq_ix2 j⟩
  obtain ⟨-, -, -, -, -, -, e6, e7⟩ := idx_facts t
  have eo : ((cfg0.win 3).blk t).view.emb (ix2 r q) = ix2 (rowOf t r) q := funext fun a => Fin.ext (by
    match a with
    | ⟨0, _⟩ => show win0_3.index t (0 : Fin 2) * 2048 + 1 * r.val = t.val * 2048 + r.val; omega
    | ⟨1, _⟩ => show win0_3.index t (1 : Fin 2) * 512 + 1 * q.val = q.val; omega)
  show k0_pay1 (F := Ideal) (iblk m c 0 t) (iblk m c 1 t) (View.ld (iblk m c 2 t) r0_2) (View.ld (iblk m c 2 t) r0_3)
      (View.ld (iblk m c 2 t) r0_4) (ix2 r q) = spec m c (((cfg0.win 3).blk t).view.emb (ix2 r q))
  rw [eo]
  exact block_out _ _ _ _ h0 h1 h2 (iblk m c 0 t) (iblk m c 1 t) (View.ld (iblk m c 2 t) r0_2)
    (View.ld (iblk m c 2 t) r0_3) (View.ld (iblk m c 2 t) r0_4) (rowOf t r) r
    (xblk_apply m c t r) (mblk_apply m c t)
    (fun k => (tblk_apply m c t 0 k _).trans ((congrFun (V_table m c) _).trans (table_row0 _ _ _ _ _ _ _ _ k)))
    (fun k => (tblk_apply m c t 1 k _).trans ((congrFun (V_table m c) _).trans (table_row1 _ _ _ _ _ _ _ _ k)))
    (fun k => (tblk_apply m c t 2 k _).trans ((congrFun (V_table m c) _).trans (table_row2 _ _ _ _ _ _ _ _ k))) q

omit h0 h1 h2 in
/-- An index of the result is in point t's block iff its row and column are in the block's ranges. -/
theorem mem_blk (t : Fin cfg0.N) (i : S32768x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v27).slice (win0_3.rect t)).set ↔ _
  rw [View.set_slice_whole, Rect.mem_set_unit]
  exact Iff.rfl

omit h0 h1 h2 in
/-- Every entry of the result lies in the block of point (its row) / 2048. -/
theorem cover (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 16 := N_0
  obtain ⟨t, ht⟩ : ∃ t : Fin cfg0.N, t.val = (i 0).val / 2048 := ⟨⟨(i 0).val / 2048, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE RESULT ARRAY after the run is the reference's result of the same arguments. -/
theorem final : (dats (F := Ideal) m 0 c).arrAt 3 cfg0.N = spec m c :=
  (dats (F := Ideal) m 0 c).arrAt_eq_of_cover 3 (spec m c) (fun t _ => flushed_eq m c h0 h1 h2 t) cover

end Final

/-- THE KERNEL'S RUN, READ: with real inputs on every core, the result array ends at the reference's result of the
    arguments, the arguments unchanged. -/
theorem kernel_run
    (hreal : ∀ c : Dev nD, (∀ i, IsReal (m ((c : Thread nD τ).loc main_arg0) i))
      ∧ (∀ i, IsReal (m ((c : Thread nD τ).loc main_arg1) i)) ∧ (∀ i, IsReal (m ((c : Thread nD τ).loc main_arg2) i))) :
    θ_run defs (onTc (τ := τ) (main (F := Ideal))) ⟨m, fun _ => 0, ρ⟩ fun r => ∀ c : Dev nD,
      r.2.mem ((c : Thread nD τ).loc main_v27) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => ⟨(h c).1.trans (final m c (hreal c).1 (hreal c).2.1 (hreal c).2.2), (h c).2⟩)
    (Cert.KernelIdeal.Value.run_blocks m ρ)

end Cert.Gmm

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.Finite.lean ====
/-
  From the "finite inputs" precondition to real numbers: when the precondition's function is one at its one index,
  every entry of each of the four argument arrays is a real number.
-/
import proofs.«150302_j45011257262295_2_alg».proof.Pre_finite_inputs
import proofs.«150302_j45011257262295_2_alg».proof.Proof.LibAllFinite
import proofs.«150302_j45011257262295_2_alg».proof.Proof.LibRealVar
import Idealize.ShloMosaic.Lib.Affine
import Idealize.ShloMosaic.Lib.ValueIdx

noncomputable section

namespace Cert.Gmm

open Idealize.ShloMosaic Idealize.ShloMosaic.ValueIdx

/-- The precondition is the conjunction, at the one index of a rank-0 array, of four all-reductions of
    `|x| < +∞`, one per argument; a conjunction of one-bit words that is one has every conjunct one, and an
    argument whose all-reduction is one has only real entries. -/
theorem real_of_pre [Cert.Pre_finite_inputs.Facts]
    (x0 : FVec Ideal Cert.Pre_finite_inputs.S32768x512 .f32) (x1 : FVec Ideal Cert.Pre_finite_inputs.S512x512 .f32)
    (x2 : FVec Ideal Cert.Pre_finite_inputs.S512x1 .f32) (x3 : FVec Ideal Cert.Pre_finite_inputs.S512 .f32)
    (h : Cert.Pre_finite_inputs.fn (F := Ideal) x0 x1 x2 x3 = fun _ => 1#1) :
    (∀ i, Cert.RealMath.IsReal (x0 i)) ∧ (∀ i, Cert.RealMath.IsReal (x1 i)) ∧
      (∀ i, Cert.RealMath.IsReal (x2 i)) ∧ (∀ i, Cert.RealMath.IsReal (x3 i)) := by
  have h0 := congrFun h ix0
  dsimp only [Cert.Pre_finite_inputs.fn, Cert.Pre_finite_inputs.fn_part1, Idealize.ShloMosaic.andi] at h0
  obtain ⟨h012, e3⟩ := IntOp.andi_eq_one.1 h0
  obtain ⟨h01, e2⟩ := IntOp.andi_eq_one.1 h012
  obtain ⟨e0, e1⟩ := IntOp.andi_eq_one.1 h01
  exact ⟨fun i => Cert.Lib.AllFinite.real_of_all x0 _ _ _ e0 i, fun i => Cert.Lib.AllFinite.real_of_all x1 _ _ _ e1 i,
    fun i => Cert.Lib.AllFinite.real_of_all x2 _ _ _ e2 i, fun i => Cert.Lib.AllFinite.real_of_all x3 _ _ _ e3 i⟩

end Cert.Gmm
-- ==== Proof.Claims.lean ====
/-
  The five claims.

  The two kernel frames are the generated frame runs. The reference has no kernel: its frame is its generated run with
  the result dropped. The idealization rewrote nothing, so there is nothing to preserve. For the algebraic claim the
  precondition makes every input entry a real number; then the kernel's result array ends at the reference's result
  of the kernel's own arguments (the kernel's run, read), and the reference's run ends at that same function of its
  arguments, which agree with the kernel's.
-/
import proofs.«150302_j45011257262295_2_alg».proof.Defs
import proofs.«150302_j45011257262295_2_alg».proof.Proof.Gen.Kernel.Frame
import proofs.«150302_j45011257262295_2_alg».proof.Proof.Gen.KernelIdeal.Frame
import proofs.«150302_j45011257262295_2_alg».proof.Proof.Gen.KernelIdeal.Value
import proofs.«150302_j45011257262295_2_alg».proof.Proof.Gen.ReferenceIdeal.Run
import proofs.«150302_j45011257262295_2_alg».proof.Proof.Gen.ReferenceIdeal.Read
import proofs.«150302_j45011257262295_2_alg».proof.Proof.Gen.Pre_finite_inputs
import proofs.«150302_j45011257262295_2_alg».proof.Proof.KernelValue
import proofs.«150302_j45011257262295_2_alg».proof.Proof.Finite

noncomputable section

namespace Cert.Proof.GmmClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition both programs end at the same function of the (agreeing) arguments: the reference's
    result term. -/
theorem algebraic : Cert.algebraic_KernelIdeal_ReferenceIdeal := by
  intro m ρ m' ρ' hpre hagree
  have hreal : ∀ c : Dev Cert.KernelIdeal.nD,
      (∀ i, Cert.RealMath.IsReal (m ((c : Thread Cert.KernelIdeal.nD Cert.KernelIdeal.τ).loc Cert.KernelIdeal.main_arg0) i))
      ∧ (∀ i, Cert.RealMath.IsReal (m ((c : Thread Cert.KernelIdeal.nD Cert.KernelIdeal.τ).loc Cert.KernelIdeal.main_arg1) i))
      ∧ (∀ i, Cert.RealMath.IsReal (m ((c : Thread Cert.KernelIdeal.nD Cert.KernelIdeal.τ).loc Cert.KernelIdeal.main_arg2) i)) :=
    fun c => by
      have h := Cert.Gmm.real_of_pre _ _ _ _ (hpre c)
      exact ⟨h.1, h.2.1, h.2.2.1⟩
  refine ⟨fun c => Cert.Gmm.spec m c, Cert.Gmm.kernel_run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v42_eq, (hagree c).1, (hagree c).2.1, (hagree c).2.2.1,
    (hagree c).2.2.2]

end Cert.Proof.GmmClaims

end
-- ==== Proof.lean ====
/-
  A Gaussian mixture's responsibilities, two ways.

  For 32768 samples x_b of dimension 512 and 512 spherical components (mean m_k, log-variance λ_k, log-weight w_k), the
  responsibility of component k for sample b is the softmax over k of the log-posterior
      −½ · (‖x_b − m_k‖² · e^{−λ_k} + 512·λ_k) + log-softmax(w)_k.
  The reference expands ‖x_b − m_k‖² = ‖x_b‖² − 2⟨x_b, m_k⟩ + ‖m_k‖² and then scales, adds and halves. The kernel folds
  the per-component factors on the host into three coefficient rows α = e^{−λ}, γ = −½α,
  β = −½‖m‖²α − ½·512λ + log-softmax(w), and computes ⟨x_b, m_k⟩·α_k + (‖x_b‖²·γ_k + β_k) tile by tile (2048 samples a
  tile), followed by the same max-shifted softmax. Over the reals the two log-posteriors are one polynomial identity;
  on extended reals the identity needs distributivity, hence finite inputs, which the precondition provides. The
  log-weight term only moves by associativity and is never opened.

  The modules: LibSoftmaxRow (the row softmax as a function of a row), LogitLaw (the scalar identity), Tile (one tile
  read at an entry), Tables (the coefficient table), HostTail (the reference's spelling read at an entry), RefStages
  (the reference's stages and their reality), Block (one grid point against the reference), KernelHost (the arrays the
  host prepares), KernelValue (blocks to the whole array), Finite (the precondition read), Claims (the five claims).
-/
import proofs.«150302_j45011257262295_2_alg».proof.Defs
import proofs.«150302_j45011257262295_2_alg».proof.Proof.Gen.Kernel
import proofs.«150302_j45011257262295_2_alg».proof.Proof.Gen.Kernel.Skeleton
import proofs.«150302_j45011257262295_2_alg».proof.Proof.Gen.Kernel.Launch
import proofs.«150302_j45011257262295_2_alg».proof.Proof.Gen.Kernel.Points
import proofs.«150302_j45011257262295_2_alg».proof.Proof.Gen.Kernel.Frame
import proofs.«150302_j45011257262295_2_alg».proof.Proof.Gen.KernelIdeal
import proofs.«150302_j45011257262295_2_alg».proof.Proof.Gen.KernelIdeal.Skeleton
import proofs.«150302_j45011257262295_2_alg».proof.Proof.Gen.KernelIdeal.Launch
import proofs.«150302_j45011257262295_2_alg».proof.Proof.Gen.KernelIdeal.Points
import proofs.«150302_j45011257262295_2_alg».proof.Proof.Gen.KernelIdeal.Frame
import proofs.«150302_j45011257262295_2_alg».proof.Proof.Gen.ReferenceIdeal
import proofs.«150302_j45011257262295_2_alg».proof.Proof.Gen.Pre_finite_inputs
import proofs.«150302_j45011257262295_2_alg».proof.Proof.Gen.KernelIdeal.Value
import proofs.«150302_j45011257262295_2_alg».proof.Proof.Gen.ReferenceIdeal.Run
import proofs.«150302_j45011257262295_2_alg».proof.Proof.Gen.ReferenceIdeal.Read
import proofs.«150302_j45011257262295_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GmmClaims.frame_k, GmmClaims.frame_ki, GmmClaims.frame_ri, GmmClaims.preserves, GmmClaims.algebraic⟩

end Cert.Proof

end
